-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S2x600000 : Shape := ⟨2, ![2, 600000]⟩
abbrev S600000 : Shape := ⟨1, ![600000]⟩
abbrev S16x128 : Shape := ⟨2, ![16, 128]⟩
abbrev S128x128 : Shape := ⟨2, ![128, 128]⟩
abbrev S128 : Shape := ⟨1, ![128]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S16x128 : S_.BroadcastsInDim S16x128 (![] : Fin 0 → Fin S16x128.rank)
  reducesTo_S16x128_S_d0_1 : S16x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg9 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg6 : FVec F S128x128 .f32) (main_arg7 : FVec F S128 .f32) (main_arg8 : FVec F S128 .f32) (main_arg9 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_v33

def fn {F : FTy → Type} [FloatOps F] (main_arg0 : FVec F S200000x128 .f32) (main_arg1 : IVec S2x600000 32) (main_arg2 : IVec S600000 32) (main_arg3 : FVec F S16x128 .f32) (main_arg4 : FVec F S128x128 .f32) (main_arg5 : FVec F S128 .f32) (main_arg6 : FVec F S128x128 .f32) (main_arg7 : FVec F S128 .f32) (main_arg8 : FVec F S128 .f32) (main_arg9 : FVec F S128 .f32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S16x128 .f32 := Host.absf main_arg3
  let main_cst_0 : FVec F S_ .f32 := constant S_ .f32 0x7F800000#32
  let main_v5 : FVec F S16x128 .f32 := broadcastInDim S16x128 ![] bcast_S_S16x128 main_cst_0
  let main_v6 : IVec S16x128 1 := cmpf .olt main_v4 main_v5
  let main_c_1 : IVec S_ 1 := constantI S_ 1 1#1
  let main_v7 : IVec S_ 1 := (fun x v => Host.reduce IntOp.andi x v reducesTo_S16x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_v13 main_v16
-- ==== Kernel.lean ====
abbrev S200000x128 : Shape := ⟨2, ![200000, 128]⟩
abbrev S2x600000 : Shape := ⟨2, ![2, 600000]⟩
abbrev S600000 : Shape := ⟨1, ![600000]⟩
abbrev S16x128 : Shape := ⟨2, ![16, 128]⟩
abbrev S128x128 : Shape := ⟨2, ![128, 128]⟩
abbrev S128 : Shape := ⟨1, ![128]⟩
abbrev S1x600000 : Shape := ⟨2, ![1, 600000]⟩
abbrev S_ : Shape := ⟨0, ![]⟩
abbrev S600000x1 : Shape := ⟨2, ![600000, 1]⟩
abbrev S600000x128 : Shape := ⟨2, ![600000, 128]⟩
abbrev S1x128 : Shape := ⟨2, ![1, 128]⟩
abbrev S2000x128 : Shape := ⟨2, ![2000, 128]⟩
abbrev S2000 : Shape := ⟨1, ![2000]⟩
abbrev S2000x1 : Shape := ⟨2, ![2000, 1]⟩

abbrev nBuf : Space → Nat
  | .hbm => 51
  | .vmem => 12
  | .smem => 0
  | _ => 0

abbrev bufTy : (tb : Table) → Fin (tcTables nBuf tb) → BufTy
  | .hbm, ⟨0, _⟩ => ⟨S200000x128, .f32⟩
  | .hbm, ⟨1, _⟩ => ⟨S2x600000, .i32⟩
  | .hbm, ⟨2, _⟩ => ⟨S600000, .i32⟩
  | .hbm, ⟨3, _⟩ => ⟨S16x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S1x600000, .i32⟩
  | .hbm, ⟨11, _⟩ => ⟨S600000, .i32⟩
  | .hbm, ⟨12, _⟩ => ⟨S1x600000, .i32⟩
  | .hbm, ⟨13, _⟩ => ⟨S600000, .i32⟩
  | .hbm, ⟨14, _⟩ => ⟨S_, .i32⟩
  | .hbm, ⟨15, _⟩ => ⟨S600000, .i32⟩
  | .hbm, ⟨16, _⟩ => ⟨S600000, .i1⟩
  | .hbm, ⟨17, _⟩ => ⟨S_, .i32⟩
  | .hbm, ⟨18, _⟩ => ⟨S600000, .i32⟩
  | .hbm, ⟨19, _⟩ => ⟨S600000, .i32⟩
  | .hbm, ⟨20, _⟩ => ⟨S600000, .i32⟩
  | .hbm, ⟨21, _⟩ => ⟨S600000x1, .i32⟩
  | .hbm, ⟨22, _⟩ => ⟨S600000x128, .f32⟩
  | .hbm, ⟨23, _⟩ => ⟨S_, .i32⟩
  | .hbm, ⟨24, _⟩ => ⟨S600000, .i32⟩
  | .hbm, ⟨25, _⟩ => ⟨S600000, .i1⟩
  | .hbm, ⟨26, _⟩ => ⟨S_, .i32⟩
  | .hbm, ⟨27, _⟩ => ⟨S600000, .i32⟩
  | .hbm, ⟨28, _⟩ => ⟨S600000, .i32⟩
  | .hbm, ⟨29, _⟩ => ⟨S600000, .i32⟩
  | .hbm, ⟨30, _⟩ => ⟨S600000x1, .i32⟩
  | .hbm, ⟨31, _⟩ => ⟨S600000x128, .f32⟩
  | .hbm, ⟨32, _⟩ => ⟨S600000x128, .f32⟩
  | .hbm, ⟨33, _⟩ => ⟨S_, .f32⟩
  | .hbm, ⟨34, _⟩ => ⟨S200000x128, .f32⟩
  | .hbm, ⟨35, _⟩ => ⟨S_, .i32⟩
  | .hbm, ⟨36, _⟩ => ⟨S600000, .i32⟩
  | .hbm, ⟨37, _⟩ => ⟨S600000, .i1⟩
  | .hbm, ⟨38, _⟩ => ⟨S_, .i32⟩
  | .hbm, ⟨39, _⟩ => ⟨S600000, .i32⟩
  | .hbm, ⟨40, _⟩ => ⟨S600000, .i32⟩
  | .hbm, ⟨41, _⟩ => ⟨S600000, .i32⟩
  | .hbm, ⟨42, _⟩ => ⟨S600000x1, .i32⟩
  | .hbm, ⟨43, _⟩ => ⟨S200000x128, .f32⟩
  | .hbm, ⟨44, _⟩ => ⟨S128x128, .f32⟩
  | .hbm, ⟨45, _⟩ => ⟨S128x128, .f32⟩
  | .hbm, ⟨46, _⟩ => ⟨S1x128, .f32⟩
  | .hbm, ⟨47, _⟩ => ⟨S1x128, .f32⟩
  | .hbm, ⟨48, _⟩ => ⟨S1x128, .f32⟩
  | .hbm, ⟨49, _⟩ => ⟨S1x128, .f32⟩
  | .hbm, ⟨50, _⟩ => ⟨S200000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S2000x128, .f32⟩
  | .local _ .vmem, ⟨11, _⟩ => ⟨S2000x128, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst : Ref sig .tc := ⟨.hbm, 33, rfl⟩
abbrev main_v19 : Ref sig .tc := ⟨.hbm, 34, rfl⟩
abbrev main_c_3 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S200000x128 : S_.BroadcastsInDim S200000x128 (![] : Fin 0 → Fin S200000x128.rank)
  transposes_S128x128_S128x128_1_0 : S128x128.Transposes [1, 0] S128x128
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reduces_S2000x128_S2000 : S2000x128.Reduces [1] S2000
  shapeCasts_S2000_S2000x1 : S2000.ShapeCasts S2000x1
  broadcasts_S2000x1_S2000x128 : S2000x1.Broadcasts S2000x128
  gather_S200000x128_S600000x1_S600000x128_1_0_n_n_0_1_1128_wf : GatherDims.WF S200000x128 S600000x1 S600000x128 [1] [0] [] [0] [] 1 ![1, 128]
  gather_S16x128_S600000x1_S600000x128_1_0_n_n_0_1_1128_wf : GatherDims.WF S16x128 S600000x1 S600000x128 [1] [0] [] [0] [] 1 ![1, 128]
  scatter_S200000x128_S600000x1_S600000x128_1_0_0_1_wf : ScatterDims.WF S200000x128 S600000x1 S600000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S200000x128.size a
  hwx0_0 : ∀ i : grid0.Coords, EltTy.bits .f32 = 32 ∨ (Rect.block (s := S200000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S200000x128.size a
  hwx0_1 : ∀ i : grid0.Coords, EltTy.bits .f32 = 32 ∨ (Rect.block (s := S200000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x128.size a ≤ S200000x128.size a
  hwx0_8 : ∀ i : grid0.Coords, EltTy.bits .f32 = 32 ∨ (Rect.block (s := S200000x128) S2000x128.size (cc0_transform_8 i) (hinb0_8 i)).WholeWords (EltTy.packing .f32)

variable [Facts₀]

def gather_S200000x128_S600000x1_S600000x128_1_0_n_n_0_1_1128 : GatherDims S200000x128 S600000x1 S600000x128 where
  offsetDims := [1]
  collapsedSliceDims := [0]
  operandBatchingDims := []
  startIndicesBatchingDims := []
  startIndexMap := [0]
  indexVectorDim := 1
  sliceSizes := ![1, 128]
  wf := gather_S200000x128_S600000x1_S600000x128_1_0_n_n_0_1_1128_wf
def gather_S16x128_S600000x1_S600000x128_1_0_n_n_0_1_1128 : GatherDims S16x128 S600000x1 S600000x128 where
  offsetDims := [1]
  collapsedSliceDims := [0]
  operandBatchingDims := []
  startIndicesBatchingDims := []
  startIndexMap := [0]
  indexVectorDim := 1
  sliceSizes := ![1, 128]
  wf := gather_S16x128_S600000x1_S600000x128_1_0_n_n_0_1_1128_wf
def scatter_S200000x128_S600000x1_S600000x128_1_0_0_1 : ScatterDims S200000x128 S600000x1 S600000x128 where
  updateWindowDims := [1]
  insertedWindowDims := [0]
  scatterDimsToOperandDims := [0]
  indexVectorDim := 1
  wf := scatter_S200000x128_S600000x1_S600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v27) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v29) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v30) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v31) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v32) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v33) S2000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S200000x128 : Shape := ⟨2, ![200000, 128]⟩
abbrev S2x600000 : Shape := ⟨2, ![2, 600000]⟩
abbrev S600000 : Shape := ⟨1, ![600000]⟩
abbrev S16x128 : Shape := ⟨2, ![16, 128]⟩
abbrev S128x128 : Shape := ⟨2, ![128, 128]⟩
abbrev S128 : Shape := ⟨1, ![128]⟩
abbrev S1x600000 : Shape := ⟨2, ![1, 600000]⟩
abbrev S_ : Shape := ⟨0, ![]⟩
abbrev S600000x1 : Shape := ⟨2, ![600000, 1]⟩
abbrev S600000x128 : Shape := ⟨2, ![600000, 128]⟩
abbrev S1x128 : Shape := ⟨2, ![1, 128]⟩
abbrev S200000 : Shape := ⟨1, ![200000]⟩
abbrev S200000x1 : Shape := ⟨2, ![200000, 1]⟩

abbrev nBuf : Space → Nat
  | .hbm => 87
  | .vmem => 0
  | .smem => 0
  | _ => 0

abbrev bufTy : (tb : Table) → Fin (tcTables nBuf tb) → BufTy
  | .hbm, ⟨0, _⟩ => ⟨S200000x128, .f32⟩
  | .hbm, ⟨1, _⟩ => ⟨S2x600000, .i32⟩
  | .hbm, ⟨2, _⟩ => ⟨S600000, .i32⟩
  | .hbm, ⟨3, _⟩ => ⟨S16x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S1x600000, .i32⟩
  | .hbm, ⟨11, _⟩ => ⟨S600000, .i32⟩
  | .hbm, ⟨12, _⟩ => ⟨S1x600000, .i32⟩
  | .hbm, ⟨13, _⟩ => ⟨S600000, .i32⟩
  | .hbm, ⟨14, _⟩ => ⟨S_, .i32⟩
  | .hbm, ⟨15, _⟩ => ⟨S600000, .i32⟩
  | .hbm, ⟨16, _⟩ => ⟨S600000, .i1⟩
  | .hbm, ⟨17, _⟩ => ⟨S_, .i32⟩
  | .hbm, ⟨18, _⟩ => ⟨S600000, .i32⟩
  | .hbm, ⟨19, _⟩ => ⟨S600000, .i32⟩
  | .hbm, ⟨20, _⟩ => ⟨S600000, .i32⟩
  | .hbm, ⟨21, _⟩ => ⟨S600000x1, .i32⟩
  | .hbm, ⟨22, _⟩ => ⟨S600000x128, .f32⟩
  | .hbm, ⟨23, _⟩ => ⟨S_, .i32⟩
  | .hbm, ⟨24, _⟩ => ⟨S600000, .i32⟩
  | .hbm, ⟨25, _⟩ => ⟨S600000, .i1⟩
  | .hbm, ⟨26, _⟩ => ⟨S_, .i32⟩
  | .hbm, ⟨27, _⟩ => ⟨S600000, .i32⟩
  | .hbm, ⟨28, _⟩ => ⟨S600000, .i32⟩
  | .hbm, ⟨29, _⟩ => ⟨S600000, .i32⟩
  | .hbm, ⟨30, _⟩ => ⟨S600000x1, .i32⟩
  | .hbm, ⟨31, _⟩ => ⟨S600000x128, .f32⟩
  | .hbm, ⟨32, _⟩ => ⟨S600000x128, .f32⟩
  | .hbm, ⟨33, _⟩ => ⟨S_, .f32⟩
  | .hbm, ⟨34, _⟩ => ⟨S200000x128, .f32⟩
  | .hbm, ⟨35, _⟩ => ⟨S_, .i32⟩
  | .hbm, ⟨36, _⟩ => ⟨S600000, .i32⟩
  | .hbm, ⟨37, _⟩ => ⟨S600000, .i1⟩
  | .hbm, ⟨38, _⟩ => ⟨S_, .i32⟩
  | .hbm, ⟨39, _⟩ => ⟨S600000, .i32⟩
  | .hbm, ⟨40, _⟩ => ⟨S600000, .i32⟩
  | .hbm, ⟨41, _⟩ => ⟨S600000, .i32⟩
  | .hbm, ⟨42, _⟩ => ⟨S600000x1, .i32⟩
  | .hbm, ⟨43, _⟩ => ⟨S200000x128, .f32⟩
  | .hbm, ⟨44, _⟩ => ⟨S128x128, .f32⟩
  | .hbm, ⟨45, _⟩ => ⟨S200000x128, .f32⟩
  | .hbm, ⟨46, _⟩ => ⟨S1x128, .f32⟩
  | .hbm, ⟨47, _⟩ => ⟨S200000x128, .f32⟩
  | .hbm, ⟨48, _⟩ => ⟨S200000x128, .f32⟩
  | .hbm, ⟨49, _⟩ => ⟨S128x128, .f32⟩
  | .hbm, ⟨50, _⟩ => ⟨S200000x128, .f32⟩
  | .hbm, ⟨51, _⟩ => ⟨S1x128, .f32⟩
  | .hbm, ⟨52, _⟩ => ⟨S200000x128, .f32⟩
  | .hbm, ⟨53, _⟩ => ⟨S200000x128, .f32⟩
  | .hbm, ⟨54, _⟩ => ⟨S200000x128, .f32⟩
  | .hbm, ⟨55, _⟩ => ⟨S_, .f32⟩
  | .hbm, ⟨56, _⟩ => ⟨S200000x128, .f32⟩
  | .hbm, ⟨57, _⟩ => ⟨S200000x128, .f32⟩
  | .hbm, ⟨58, _⟩ => ⟨S_, .f32⟩
  | .hbm, ⟨59, _⟩ => ⟨S200000, .f32⟩
  | .hbm, ⟨60, _⟩ => ⟨S200000x1, .f32⟩
  | .hbm, ⟨61, _⟩ => ⟨S_, .f32⟩
  | .hbm, ⟨62, _⟩ => ⟨S200000x1, .f32⟩
  | .hbm, ⟨63, _⟩ => ⟨S200000x1, .f32⟩
  | .hbm, ⟨64, _⟩ => ⟨S200000x128, .f32⟩
  | .hbm, ⟨65, _⟩ => ⟨S200000x128, .f32⟩
  | .hbm, ⟨66, _⟩ => ⟨S200000x128, .f32⟩
  | .hbm, ⟨67, _⟩ => ⟨S_, .f32⟩
  | .hbm, ⟨68, _⟩ => ⟨S200000, .f32⟩
  | .hbm, ⟨69, _⟩ => ⟨S200000x1, .f32⟩
  | .hbm, ⟨70, _⟩ => ⟨S_, .f32⟩
  | .hbm, ⟨71, _⟩ => ⟨S200000x1, .f32⟩
  | .hbm, ⟨72, _⟩ => ⟨S200000x1, .f32⟩
  | .hbm, ⟨73, _⟩ => ⟨S200000x128, .f32⟩
  | .hbm, ⟨74, _⟩ => ⟨S200000x128, .f32⟩
  | .hbm, ⟨75, _⟩ => ⟨S_, .f32⟩
  | .hbm, ⟨76, _⟩ => ⟨S200000x1, .f32⟩
  | .hbm, ⟨77, _⟩ => ⟨S200000x1, .f32⟩
  | .hbm, ⟨78, _⟩ => ⟨S200000x1, .f32⟩
  | .hbm, ⟨79, _⟩ => ⟨S200000x128, .f32⟩
  | .hbm, ⟨80, _⟩ => ⟨S200000x128, .f32⟩
  | .hbm, ⟨81, _⟩ => ⟨S1x128, .f32⟩
  | .hbm, ⟨82, _⟩ => ⟨S200000x128, .f32⟩
  | .hbm, ⟨83, _⟩ => ⟨S200000x128, .f32⟩
  | .hbm, ⟨84, _⟩ => ⟨S1x128, .f32⟩
  | .hbm, ⟨85, _⟩ => ⟨S200000x128, .f32⟩
  | .hbm, ⟨86, _⟩ => ⟨S200000x128, .f32⟩
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst : Ref sig .tc := ⟨.hbm, 33, rfl⟩
abbrev main_v19 : Ref sig .tc := ⟨.hbm, 34, rfl⟩
abbrev main_c_3 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_call0_cst : Ref sig .tc := ⟨.hbm, 55, rfl⟩
abbrev main_call0_v0 : Ref sig .tc := ⟨.hbm, 56, rfl⟩
abbrev main_v38 : Ref sig .tc := ⟨.hbm, 57, rfl⟩
abbrev main_cst_5 : Ref sig .tc := ⟨.hbm, 58, rfl⟩
abbrev main_v39 : Ref sig .tc := ⟨.hbm, 59, rfl⟩
abbrev main_v40 : Ref sig .tc := ⟨.hbm, 60, rfl⟩
abbrev main_cst_6 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_7 : Ref sig .tc := ⟨.hbm, 67, rfl⟩
abbrev main_v46 : Ref sig .tc := ⟨.hbm, 68, rfl⟩
abbrev main_v47 : Ref sig .tc := ⟨.hbm, 69, rfl⟩
abbrev main_cst_8 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_9 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S200000x128 : S_.BroadcastsInDim S200000x128 (![] : Fin 0 → Fin S200000x128.rank)
  transposes_S128x128_S128x128_1_0 : S128x128.Transposes [1, 0] S128x128
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  reducesTo_S200000x128_S200000_d1 : S200000x128.ReducesTo [1] S200000
  h_S_ : 0 < S_.numel
  bcast_S200000_S200000x1_0 : S200000.BroadcastsInDim S200000x1 (![0] : Fin 1 → Fin S200000x1.rank)
  bcast_S_S200000x1 : S_.BroadcastsInDim S200000x1 (![] : Fin 0 → Fin S200000x1.rank)
  bcast_S200000x1_S200000x128_0_1 : S200000x1.BroadcastsInDim S200000x128 (![0, 1] : Fin 2 → Fin S200000x128.rank)
  gather_S200000x128_S600000x1_S600000x128_1_0_n_n_0_1_1128_wf : GatherDims.WF S200000x128 S600000x1 S600000x128 [1] [0] [] [0] [] 1 ![1, 128]
  gather_S16x128_S600000x1_S600000x128_1_0_n_n_0_1_1128_wf : GatherDims.WF S16x128 S600000x1 S600000x128 [1] [0] [] [0] [] 1 ![1, 128]
  scatter_S200000x128_S600000x1_S600000x128_1_0_0_1_wf : ScatterDims.WF S200000x128 S600000x1 S600000x128 [1] [0] [0] 1
  dot_S200000x128_S128x128_S200000x128_1_0_0_1_n_n_wf : DotDims.WF S200000x128 S128x128 S200000x128 [1] [0] [0] [1] [] []

variable [Facts₀]

def gather_S200000x128_S600000x1_S600000x128_1_0_n_n_0_1_1128 : GatherDims S200000x128 S600000x1 S600000x128 where
  offsetDims := [1]
  collapsedSliceDims := [0]
  operandBatchingDims := []
  startIndicesBatchingDims := []
  startIndexMap := [0]
  indexVectorDim := 1
  sliceSizes := ![1, 128]
  wf := gather_S200000x128_S600000x1_S600000x128_1_0_n_n_0_1_1128_wf
def gather_S16x128_S600000x1_S600000x128_1_0_n_n_0_1_1128 : GatherDims S16x128 S600000x1 S600000x128 where
  offsetDims := [1]
  collapsedSliceDims := [0]
  operandBatchingDims := []
  startIndicesBatchingDims := []
  startIndexMap := [0]
  indexVectorDim := 1
  sliceSizes := ![1, 128]
  wf := gather_S16x128_S600000x1_S600000x128_1_0_n_n_0_1_1128_wf
def scatter_S200000x128_S600000x1_S600000x128_1_0_0_1 : ScatterDims S200000x128 S600000x1 S600000x128 where
  updateWindowDims := [1]
  insertedWindowDims := [0]
  scatterDimsToOperandDims := [0]
  indexVectorDim := 1
  wf := scatter_S200000x128_S600000x1_S600000x128_1_0_0_1_wf
def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf

class Facts : Prop extends Facts₀ where

variable [Facts]
-- ==== Proof.RowSpec.lean ====
/-
  One output row of the layer, as a function on the extended reals.

  Row `r` of the result depends on row `r` of the node features `x`, row `r` of the aggregated messages, the two
  128 × 128 weight matrices and four vectors of length 128, and on nothing else:

    pre j   = (∑ₖ xr k · ws k j + bs j) + (∑ₖ ar k · wm k j + bm j)        the two linear maps, biased, added
    act j   = max (pre j) 0                                                 the rectifier
    mean    = (∑ⱼ act j) / 128
    cen j   = act j − mean                                                  centring
    var     = (∑ⱼ cen j · cen j) / 128
    out j   = (cen j · (var + ε)^(−1/2)) · g j + b j                        normalising, scale and shift

  `ws k j` and `wm k j` are the weights as the products use them (contraction index first). The three float
  literals stay the words both programs print: the zero the rectifier compares with, the divisor 128 and ε; the same
  word denotes the same extended real wherever it stands, so none is ever evaluated.
  Nothing here assumes an entry finite: the two programs compute this same expression, operation for operation,
  so no law of the extended reals that could fail at an infinity is needed to identify them.
-/
import Idealize.ShloMosaic.PureOps.Ideal
import Idealize.ShloMosaic.Lib.ValueIdx

noncomputable section

namespace Cert.TypedLayer

open Idealize.ShloMosaic

/-- The sum of the two biased linear maps at output column `j`, in the grouping both programs use. -/
def pre (xr ar : Fin 128 → EReal) (ws wm : Fin 128 → Fin 128 → EReal) (bs bm : Fin 128 → EReal) (j : Fin 128) : EReal :=
  ((∑ k : Fin 128, xr k * ws k j) + bs j) + ((∑ k : Fin 128, ar k * wm k j) + bm j)

/-- The rectified pre-activation. -/
def act (xr ar : Fin 128 → EReal) (ws wm : Fin 128 → Fin 128 → EReal) (bs bm : Fin 128 → EReal) (j : Fin 128) : EReal :=
  max (pre xr ar ws wm bs bm j) (Ideal.ofBits .f32 0x00000000#32)

/-- The mean of a row of 128 entries: their sum divided by the float 128. -/
def rowMean (a : Fin 128 → EReal) : EReal :=
  Ideal.div (∑ j : Fin 128, a j) (Ideal.ofBits .f32 0x43000000#32)

/-- A row with its mean subtracted. -/
def centered (a : Fin 128 → EReal) (j : Fin 128) : EReal := a j - rowMean a

/-- The variance of a row: the mean of the squares of the centred entries. -/
def rowVar (a : Fin 128 → EReal) : EReal := rowMean fun j => centered a j * centered a j

/-- The normalised row, scaled by `g` and shifted by `b`. -/
def normed (a g b : Fin 128 → EReal) (j : Fin 128) : EReal :=
  centered a j * Ideal.rsqrt (rowVar a + Ideal.ofBits .f32 0x3727C5AC#32) * g j + b j

/-- One row of the layer's result. -/
def rowOut (xr ar : Fin 128 → EReal) (ws wm : Fin 128 → Fin 128 → EReal) (bs bm g b : Fin 128 → EReal) (j : Fin 128) : EReal :=
  normed (act xr ar ws wm bs bm) g b j

/-- The row function only looks at its arguments entry by entry. -/
theorem rowOut_congr {xr xr' ar ar' : Fin 128 → EReal} {ws ws' wm wm' : Fin 128 → Fin 128 → EReal}
    {bs bs' bm bm' g g' b b' : Fin 128 → EReal}
    (h0 : ∀ k, xr k = xr' k) (h1 : ∀ k, ar k = ar' k) (h2 : ∀ k j, ws k j = ws' k j) (h3 : ∀ k j, wm k j = wm' k j)
    (h4 : ∀ j, bs j = bs' j) (h5 : ∀ j, bm j = bm' j) (h6 : ∀ j, g j = g' j) (h7 : ∀ j, b j = b' j) (q : Fin 128) :
    rowOut xr ar ws wm bs bm g b q = rowOut xr' ar' ws' wm' bs' bm' g' b' q := by
  obtain rfl : xr = xr' := funext h0
  obtain rfl : ar = ar' := funext h1
  obtain rfl : ws = ws' := funext fun k => funext (h2 k)
  obtain rfl : wm = wm' := funext fun k => funext (h3 k)
  obtain rfl : bs = bs' := funext h4
  obtain rfl : bm = bm' := funext h5
  obtain rfl : g = g' := funext h6
  obtain rfl : b = b' := funext h7
  rfl

/-- The whole result: entry `(r, q)` is column `q` of the row function of rows `r` of `x` and of the aggregated
    messages `agg`. The weight matrices enter as the arguments hold them, `w j k` with the OUTPUT column first, so the
    products read them transposed; the four vectors enter as given. -/
def layer (x agg : (⟨2, ![200000, 128]⟩ : Shape).Idx → EReal) (wSelf wMsg : (⟨2, ![128, 128]⟩ : Shape).Idx → EReal)
    (bSelf bMsg gamma beta : (⟨1, ![128]⟩ : Shape).Idx → EReal) : (⟨2, ![200000, 128]⟩ : Shape).Idx → EReal := fun i =>
  rowOut (fun k => x (ValueIdx.ix2 (⟨(i 0).val, (i 0).isLt⟩ : Fin 200000) k))
    (fun k => agg (ValueIdx.ix2 (⟨(i 0).val, (i 0).isLt⟩ : Fin 200000) k))
    (fun k j => wSelf (ValueIdx.ix2 j k)) (fun k j => wMsg (ValueIdx.ix2 j k))
    (fun j => bSelf (ValueIdx.ix1 j)) (fun j => bMsg (ValueIdx.ix1 j))
    (fun j => gamma (ValueIdx.ix1 j)) (fun j => beta (ValueIdx.ix1 j))
    ⟨(i 1).val, (i 1).isLt⟩

end Cert.TypedLayer

end
-- ==== Proof.KernelRow.lean ====
/-
  What the kernel body leaves in a block, entry by entry.

  A grid point's body loads a 2000 × 128 block of the node features and of the aggregated messages, the two
  128 × 128 weight matrices (already transposed: contraction index first) and four 1 × 128 rows, and stores one
  2000 × 128 block. Entry `(p, q)` of the stored block is column `q` of the row function `rowOut` of ROW `p` of the
  two loaded blocks: a matrix product into a zero accumulator is the sum over the contraction index of the
  operands' products, a lane reduction with `add` is the sum over the row, rounding to bf16 is the identity on the
  extended reals, and the casts and broadcasts around the reductions ([2000] → [2000, 1] → [2000, 128], and
  [1, 128] → [2000, 128]) only say which entry is read.
-/
import proofs.«110579_j80848464379988_1_alg».proof.Proof.Gen.KernelIdeal.Value
import proofs.«110579_j80848464379988_1_alg».proof.Proof.RowSpec
import Idealize.ShloMosaic.Lib.ValueIdx
import Idealize.ShloMosaic.Lib.Pipeline.Value
import Idealize.ShloMosaic.PureOps.Ideal.Laws

noncomputable section

namespace Cert.TypedLayer.Kernel

open Idealize.ShloMosaic Idealize.ShloMosaic.TcCoe Idealize.ShloMosaic.ValueIdx
open Cert.KernelIdeal Cert.KernelIdeal.Gen Cert.KernelIdeal.Value
open Cert.TypedLayer

/-! ## Which entry a cast or a broadcast reads -/

/-- A column [2000, 1] broadcast along the lanes: entry `(p, q)` is the column's entry `p`. -/
theorem bcastCol_apply (v : FVec Ideal S2000x1 .f32) (h : S2000x1.Broadcasts S2000x128) (p : Fin 2000) (q : Fin 128) :
    broadcastTo S2000x128 v h (ix2 p q) = v (ix2 p (0 : Fin 1)) :=
  broadcastTo_apply v h (ix2 p q) (ix2 p (0 : Fin 1)) (fun a => match a with
    | ⟨0, _⟩ => by show p.val = (if (2000 : Nat) = 1 then 0 else p.val); rw [if_neg (by decide)]
    | ⟨1, _⟩ => by show 0 = (if (1 : Nat) = 1 then 0 else q.val); rw [if_pos rfl])

/-- A row [1, 128] broadcast down the sublanes: entry `(p, q)` is the row's entry `q`. -/
theorem bcastRow_apply (v : FVec Ideal S1x128 .f32) (h : S1x128.Broadcasts S2000x128) (p : Fin 2000) (q : Fin 128) :
    broadcastTo S2000x128 v h (ix2 p q) = v (ix2 (0 : Fin 1) q) :=
  broadcastTo_apply v h (ix2 p q) (ix2 (0 : Fin 1) q) (fun a => match a with
    | ⟨0, _⟩ => by show 0 = (if (1 : Nat) = 1 then 0 else p.val); rw [if_pos rfl]
    | ⟨1, _⟩ => by show q.val = (if (128 : Nat) = 1 then 0 else q.val); rw [if_neg (by decide)])

/-- A vector of 2000 row values recast as a column [2000, 1]: entry `(p, 0)` is value `p`. -/
theorem castCol_apply (v : FVec Ideal S2000 .f32) (h : S2000.ShapeCasts S2000x1) (p : Fin 2000) :
    shapeCast S2000x1 v h (ix2 p (0 : Fin 1)) = v (ix1 p) :=
  shapeCast_apply v h (ix2 p (0 : Fin 1)) (ix1 p) (by
    rw [Shape.rowMajor_val_one, Shape.rowMajor_val_two]; show p.val = p.val * 1 + 0; omega)

/-! ## The two reductions as sums -/

/-- The lane reduction of a block with `add`: value `p` is the sum of row `p`. -/
theorem rowSum_apply (src : FVec Ideal S2000x128 .f32) (h : S2000x128.Reduces [1] S2000) (hφ : FKind.Formats .f32)
    (hacc : (0x00000000#32 : BitVec 32) = FKind.add.neutral .f32 hφ) (p : Fin 2000) :
    multiReduction .add [1] S2000 src 0x00000000#32 h hφ hacc (ix1 p) = ∑ k : Fin 128, src (ix2 p k) := by
  refine (Ideal.multiReduction_add_single src 0x00000000#32 h hφ hacc (ix1 p)).trans ?_
  refine Finset.sum_congr rfl fun k _ => congrArg src ?_
  funext a; apply Fin.ext
  match a with
  | ⟨0, _⟩ => rfl
  | ⟨1, _⟩ => rfl

/-- The product's left operand is read at the output's row … -/
theorem mm_lhs_row (i : S2000x128.Idx) (c : dot_S2000x128_S128x128_S2000x128_1_0_0_1_n_n.contr.Idx) :
    (dot_S2000x128_S128x128_S2000x128_1_0_0_1_n_n.lhsIdx i c 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl

/-- … and its right operand at the output's column. -/
theorem mm_rhs_col (i : S2000x128.Idx) (c : dot_S2000x128_S128x128_S2000x128_1_0_0_1_n_n.contr.Idx) :
    (dot_S2000x128_S128x128_S2000x128_1_0_0_1_n_n.rhsIdx i c 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- The block product into a zero accumulator: entry `(p, q)` is the sum over the contraction index `k` of the left
    operand's `(p, k)` times the right operand's `(k, q)`. -/
theorem mm_apply (lhs : FVec Ideal S2000x128 .bf16) (rhs : FVec Ideal S128x128 .bf16) (p : Fin 2000) (q : Fin 128) :
    matmul dot_S2000x128_S128x128_S2000x128_1_0_0_1_n_n none lhs rhs (constant S2000x128 .f32 0x00000000#32) (ix2 p q)
      = ∑ k : Fin 128, lhs (ix2 p k) * rhs (ix2 k q) := by
  refine (Ideal.matmul_constant_zero_apply dot_S2000x128_S128x128_S2000x128_1_0_0_1_n_n none lhs rhs (ix2 p q)).trans ?_
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k :=
    funext fun a => Fin.ext (by
      match a with
      | ⟨0, _⟩ => exact mm_lhs_row _ _
      | ⟨1, _⟩ => exact (dot_S2000x128_S128x128_S2000x128_1_0_0_1_n_n.lhsIdx_val_of_single rfl _ _).trans hk)
  have er : dot_S2000x128_S128x128_S2000x128_1_0_0_1_n_n.rhsIdx (ix2 p q) ((contrEquiv1 dot_S2000x128_S128x128_S2000x128_1_0_0_1_n_n 128 rfl rfl).symm k) = ix2 k q :=
    funext fun a => Fin.ext (by
      match a with
      | ⟨0, _⟩ => exact (dot_S2000x128_S128x128_S2000x128_1_0_0_1_n_n.rhsIdx_val_of_single rfl _ _).trans hk
      | ⟨1, _⟩ => exact mm_rhs_col _ _)
  rw [el, er]

/-! ## The body's arithmetic -/

/-- The rectified sum of the two biased products, as the body computes it from six of its loads. -/
def reluLin (P0 P1 : Vec Ideal S2000x128 .f32) (P2 P3 : Vec Ideal S128x128 .f32) (P4 P5 : Vec Ideal S1x128 .f32) :
    FVec Ideal S2000x128 .f32 :=
  maximumf
    (addf
      (addf
        (matmul dot_S2000x128_S128x128_S2000x128_1_0_0_1_n_n none (truncf .bf16 P0 bitsLt_bf16_f32)
          (truncf .bf16 (shapeCast S128x128 P2 shapeCasts_S128x128_S128x128) bitsLt_bf16_f32) (constant S2000x128 .f32 0x00000000#32))
        (broadcastTo S2000x128 (shapeCast S1x128 P4 shapeCasts_S1x128_S1x128) broadcasts_S1x128_S2000x128))
      (addf
        (matmul dot_S2000x128_S128x128_S2000x128_1_0_0_1_n_n none (truncf .bf16 (shapeCast S2000x128 P1 shapeCasts_S2000x128_S2000x128) bitsLt_bf16_f32)
          (truncf .bf16 (shapeCast S128x128 P3 shapeCasts_S128x128_S128x128) bitsLt_bf16_f32) (constant S2000x128 .f32 0x00000000#32))
        (broadcastTo S2000x128 (shapeCast S1x128 P5 shapeCasts_S1x128_S1x128) broadcasts_S1x128_S2000x128)))
    (broadcast S2000x128 (Scalar.ofBits .f32 0x00000000#32))

/-- A block with each row's mean subtracted, as the body computes it: the lane sum, recast as a column, divided by
    the float 128 and broadcast back along the lanes. -/
def centerRows (A : FVec Ideal S2000x128 .f32) : FVec Ideal S2000x128 .f32 :=
  subf A (broadcastTo S2000x128
    (divf (shapeCast S2000x1 (multiReduction .add [1] S2000 A 0x00000000#32 reduces_S2000x128_S2000 (.inl rfl) rfl) shapeCasts_S2000_S2000x1)
      (broadcast S2000x1 (Scalar.ofBits .f32 0x43000000#32)))
    broadcasts_S2000x1_S2000x128)

/-- The body's centred activation is the centring of the rectified linear part. -/
theorem pay2_eq (P0 P1 : Vec Ideal S2000x128 .f32) (P2 P3 : Vec Ideal S128x128 .f32) (P4 P5 : Vec Ideal S1x128 .f32) :
    k0_pay2 (F := Ideal) P0 P1 P2 P3 P4 P5 = centerRows (reluLin P0 P1 P2 P3 P4 P5) := rfl

/-- Entry `(p, j)` of the rectified linear part is `act` of rows `p` of the two blocks at column `j`. -/
theorem reluLin_apply (P0 P1 : Vec Ideal S2000x128 .f32) (P2 P3 : Vec Ideal S128x128 .f32) (P4 P5 : Vec Ideal S1x128 .f32)
    (p : Fin 2000) (j : Fin 128) :
    reluLin P0 P1 P2 P3 P4 P5 (ix2 p j)
      = act (fun k => P0 (ix2 p k)) (fun k => P1 (ix2 p k)) (fun k j => P2 (ix2 k j)) (fun k j => P3 (ix2 k j))
          (fun j => P4 (ix2 (0 : Fin 1) j)) (fun j => P5 (ix2 (0 : Fin 1) j)) j := by
  unfold reluLin act pre
  simp only [shapeCast_self]
  show max ((_ + _) + (_ + _)) _ = max ((_ + _) + (_ + _)) _
  rw [mm_apply, mm_apply, bcastRow_apply, bcastRow_apply]
  rfl

/-- Entry `(p, q)` of a centred block is the centred row `p` at `q`. -/
theorem centerRows_apply (A : FVec Ideal S2000x128 .f32) (p : Fin 2000) (q : Fin 128) :
    centerRows A (ix2 p q) = centered (fun j => A (ix2 p j)) q := by
  unfold centerRows centered rowMean
  show A (ix2 p q) - _ = A (ix2 p q) - _
  refine congrArg (A (ix2 p q) - ·) ?_
  refine (bcastCol_apply _ _ p q).trans ?_
  show Ideal.div _ _ = Ideal.div _ _
  refine congrArg (Ideal.div · _) ?_
  refine (castCol_apply _ _ p).trans ?_
  exact rowSum_apply A _ _ _ p

/-- So the body's centred activation at `(p, q)` is the centred `act` row. -/
theorem pay2_apply (P0 P1 : Vec Ideal S2000x128 .f32) (P2 P3 : Vec Ideal S128x128 .f32) (P4 P5 : Vec Ideal S1x128 .f32)
    (p : Fin 2000) (q : Fin 128) :
    k0_pay2 (F := Ideal) P0 P1 P2 P3 P4 P5 (ix2 p q)
      = centered (act (fun k => P0 (ix2 p k)) (fun k => P1 (ix2 p k)) (fun k j => P2 (ix2 k j)) (fun k j => P3 (ix2 k j))
          (fun j => P4 (ix2 (0 : Fin 1) j)) (fun j => P5 (ix2 (0 : Fin 1) j))) q := by
  rw [pay2_eq, centerRows_apply]
  exact congrArg (centered · q) (funext fun j => reluLin_apply P0 P1 P2 P3 P4 P5 p j)

/-! ## The stored block -/

/-- Normalising, scaling and shifting a centred block: if row `p` of the block `C` is the centred row `a`, then the body's
    last operations — the lane sum of the squares over 128, plus ε, inverse square root, times the entry, times the
    scale, plus the shift — give `normed a` at `(p, q)`. -/
theorem normed_of_centered (C : FVec Ideal S2000x128 .f32) (a : Fin 128 → EReal) (P6 P7 : Vec Ideal S1x128 .f32)
    (p : Fin 2000) (q : Fin 128) (hC : ∀ j : Fin 128, C (ix2 p j) = centered a j) :
    C (ix2 p q)
        * Ideal.rsqrt (Ideal.div (multiReduction .add [1] S2000 (mulf C C) 0x00000000#32 reduces_S2000x128_S2000 (.inl rfl) rfl (ix1 p))
            (Ideal.ofBits .f32 0x43000000#32) + Ideal.ofBits .f32 0x3727C5AC#32)
        * P6 (ix2 (0 : Fin 1) q) + P7 (ix2 (0 : Fin 1) q)
      = normed a (fun j => P6 (ix2 (0 : Fin 1) j)) (fun j => P7 (ix2 (0 : Fin 1) j)) q := by
  have hs : multiReduction .add [1] S2000 (mulf C C) 0x00000000#32 reduces_S2000x128_S2000 (.inl rfl) rfl (ix1 p)
      = ∑ j : Fin 128, centered a j * centered a j :=
    (rowSum_apply (mulf C C) reduces_S2000x128_S2000 (.inl rfl) rfl p).trans
      (Finset.sum_congr rfl fun k _ => by show C (ix2 p k) * C (ix2 p k) = _; rw [hC k])
  rw [hs, hC q]
  rfl

/-- Entry `(p, q)` of the block the body stores is the row function of rows `p` of the two loaded blocks, of the two
    loaded matrices and of the four loaded rows, at column `q`. -/
theorem stored_apply (P0 P1 : Vec Ideal S2000x128 .f32) (P2 P3 : Vec Ideal S128x128 .f32) (P4 P5 P6 P7 : Vec Ideal S1x128 .f32)
    (p : Fin 2000) (q : Fin 128) :
    E8 (F := Ideal) P0 P1 P2 P3 P4 P5 P6 P7 (ix2 p q)
      = rowOut (fun k => P0 (ix2 p k)) (fun k => P1 (ix2 p k)) (fun k j => P2 (ix2 k j)) (fun k j => P3 (ix2 k j))
          (fun j => P4 (ix2 (0 : Fin 1) j)) (fun j => P5 (ix2 (0 : Fin 1) j))
          (fun j => P6 (ix2 (0 : Fin 1) j)) (fun j => P7 (ix2 (0 : Fin 1) j)) q := by
  have e0 : ix8_0 (ix2 p q) = ix2 p q := funext fun a => Fin.ext (by match a with | ⟨0, _⟩ => rfl | ⟨1, _⟩ => rfl)
  have e1 : ix8_1 (ix2 p q) = ix1 p := funext fun a => Fin.ext (by match a with | ⟨0, _⟩ => rfl)
  have e2 : ix8_2 (ix2 p q) = ix2 (0 : Fin 1) q := funext fun a => Fin.ext (by match a with | ⟨0, _⟩ => rfl | ⟨1, _⟩ => rfl)
  have e3 : ix8_3 (ix2 p q) = ix2 (0 : Fin 1) q := funext fun a => Fin.ext (by match a with | ⟨0, _⟩ => rfl | ⟨1, _⟩ => rfl)
  show (k0_pay2 P0 P1 P2 P3 P4 P5 (ix8_0 (ix2 p q))
        * Ideal.rsqrt (Ideal.div (multiReduction .add [1] S2000 (mulf (k0_pay2 P0 P1 P2 P3 P4 P5) (k0_pay2 P0 P1 P2 P3 P4 P5)) 0x00000000#32
            reduces_S2000x128_S2000 (.inl rfl) rfl (ix8_1 (ix2 p q))) (Ideal.ofBits .f32 0x43000000#32) + Ideal.ofBits .f32 0x3727C5AC#32))
        * P6 (ix8_2 (ix2 p q)) + P7 (ix8_3 (ix2 p q)) = _
  rw [e0, e1, e2, e3]
  exact normed_of_centered (k0_pay2 P0 P1 P2 P3 P4 P5) (act (fun k => P0 (ix2 p k)) (fun k => P1 (ix2 p k)) (fun k j => P2 (ix2 k j)) (fun k j => P3 (ix2 k j)) (fun j => P4 (ix2 (0 : Fin 1) j)) (fun j => P5 (ix2 (0 : Fin 1) j))) P6 P7 p q (fun j => pay2_apply P0 P1 P2 P3 P4 P5 p j)

theorem hz0 : (![0, 0] : Fin 2 → Nat) = fun _ => 0 := funext fun a => by fin_cases a <;> rfl

/-- The same for the stored value itself: the one store covers the whole block, so what the block ends holding is
    the stored value. -/
theorem payload_apply (P0 P1 : Vec Ideal S2000x128 .f32) (P2 P3 : Vec Ideal S128x128 .f32) (P4 P5 P6 P7 : Vec Ideal S1x128 .f32)
    (p : Fin 2000) (q : Fin 128) :
    k0_pay1 (F := Ideal) (k0_pay2 P0 P1 P2 P3 P4 P5) (k0_pay3 P0 P1 P2 P3 P4 P5) P6 P7 (ix2 p q)
      = rowOut (fun k => P0 (ix2 p k)) (fun k => P1 (ix2 p k)) (fun k j => P2 (ix2 k j)) (fun k j => P3 (ix2 k j))
          (fun j => P4 (ix2 (0 : Fin 1) j)) (fun j => P5 (ix2 (0 : Fin 1) j))
          (fun j => P6 (ix2 (0 : Fin 1) j)) (fun j => P7 (ix2 (0 : Fin 1) j)) q := by
  have hc := Value.canon8_eq (F := Ideal) P0 P1 P2 P3 P4 P5 P6 P7 (ix2 p q)
  rw [View.canon_unit_zero hz0] at hc
  exact hc.trans (stored_apply P0 P1 P2 P3 P4 P5 P6 P7 p q)

end Cert.TypedLayer.Kernel

end
-- ==== Proof.KernelHost.lean ====
/-
  The arrays the region finds in the windows that host operations wrote.

  Before the region the program computes, on the host: the aggregated messages (two gathers, an add and a
  scatter-add over the edge list — the same operations, in the same order, as the reference's); the transposes of
  the two weight matrices; and the four vectors recast as 1 × 128 rows. The aggregated array is carried whole, as
  the reference's own term for it: it is never read at an index. A transposed matrix at `(k, j)` is the matrix at
  `(j, k)`; a recast row at `(0, j)` is the vector at `j`.
-/
import proofs.«110579_j80848464379988_1_alg».proof.Proof.Gen.KernelIdeal.Frame
import proofs.«110579_j80848464379988_1_alg».proof.Proof.Gen.ReferenceIdeal.Read
import Idealize.ShloMosaic.Lib.ValueIdx
import Idealize.ShloMosaic.Lib.Pipeline.Value
import Idealize.ShloMosaic.Lib.StableHlo.Run

noncomputable section

namespace Cert.TypedLayer.Kernel

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

set_option maxRecDepth 8192 in
set_option maxHeartbeats 8000000 in
/-- The aggregated messages as the region finds them: the reference's scatter-add stage of the same four arguments. -/
theorem V_aggregated (c : Dev nD) :
    (V m c main_v26 : S200000x128.Idx → EReal)
      = Cert.ReferenceIdeal.Read.val_main_v26 (F := Ideal) (m ((c : Thread nD τ).loc main_arg0)) (m ((c : Thread nD τ).loc main_arg1))
          (m ((c : Thread nD τ).loc main_arg2)) (m ((c : Thread nD τ).loc main_arg3)) := by
  dsimp only [Gen.V, Gen.hostOps0]
  after_results_simp <;> rfl

set_option maxRecDepth 8192 in
set_option maxHeartbeats 8000000 in
/-- The first transposed weight matrix, contraction index first: at `(k, j)` it is `W_self` at `(j, k)`. -/
theorem V_wSelfT (c : Dev nD) (k j : Fin 128) :
    (V m c main_v27 : S128x128.Idx → EReal) (ix2 k j) = (m ((c : Thread nD τ).loc main_arg4) : S128x128.Idx → EReal) (ix2 j k) := by
  have e : (V m c main_v27 : S128x128.Idx → EReal)
      = transpose S128x128 [1, 0] (m ((c : Thread nD τ).loc main_arg4)) transposes_S128x128_S128x128_1_0 := by
    dsimp only [Gen.V, Gen.hostOps0]
    after_results_simp <;> rfl
  rw [e]
  exact transpose_apply [1, 0] _ transposes_S128x128_S128x128_1_0 (ix2 k j) (ix2 j k) (fun b => match b with
    | ⟨0, _⟩ => rfl
    | ⟨1, _⟩ => rfl)

set_option maxRecDepth 8192 in
set_option maxHeartbeats 8000000 in
/-- The second transposed weight matrix: at `(k, j)` it is `W_msg` at `(j, k)`. -/
theorem V_wMsgT (c : Dev nD) (k j : Fin 128) :
    (V m c main_v28 : S128x128.Idx → EReal) (ix2 k j) = (m ((c : Thread nD τ).loc main_arg6) : S128x128.Idx → EReal) (ix2 j k) := by
  have e : (V m c main_v28 : S128x128.Idx → EReal)
      = transpose S128x128 [1, 0] (m ((c : Thread nD τ).loc main_arg6)) transposes_S128x128_S128x128_1_0 := by
    dsimp only [Gen.V, Gen.hostOps0]
    after_results_simp <;> rfl
  rw [e]
  exact transpose_apply [1, 0] _ transposes_S128x128_S128x128_1_0 (ix2 k j) (ix2 j k) (fun b => match b with
    | ⟨0, _⟩ => rfl
    | ⟨1, _⟩ => rfl)

/-- A vector of length 128 recast as a 1 × 128 row: at `(0, j)` it is the vector at `j`. -/
theorem castRow_apply (v : S128.Idx → EReal) (h : S128.ShapeCasts S1x128) (j : Fin 128) :
    shapeCast S1x128 v h (ix2 (0 : Fin 1) j) = v (ix1 j) :=
  shapeCast_apply v h (ix2 (0 : Fin 1) j) (ix1 j) (by
    rw [Shape.rowMajor_val_one, Shape.rowMajor_val_two]; show j.val = 0 * 128 + j.val; omega)

set_option maxRecDepth 8192 in
set_option maxHeartbeats 8000000 in
/-- The four recast rows, at `(0, j)`: the bias of each linear map, the scale and the shift, at `j`. -/
theorem V_rows (c : Dev nD) (j : Fin 128) :
    (V m c main_v29 : S1x128.Idx → EReal) (ix2 (0 : Fin 1) j) = (m ((c : Thread nD τ).loc main_arg5) : S128.Idx → EReal) (ix1 j)
    ∧ (V m c main_v30 : S1x128.Idx → EReal) (ix2 (0 : Fin 1) j) = (m ((c : Thread nD τ).loc main_arg7) : S128.Idx → EReal) (ix1 j)
    ∧ (V m c main_v31 : S1x128.Idx → EReal) (ix2 (0 : Fin 1) j) = (m ((c : Thread nD τ).loc main_arg8) : S128.Idx → EReal) (ix1 j)
    ∧ (V m c main_v32 : S1x128.Idx → EReal) (ix2 (0 : Fin 1) j) = (m ((c : Thread nD τ).loc main_arg9) : S128.Idx → EReal) (ix1 j) := by
  have e5 : (V m c main_v29 : S1x128.Idx → EReal) = shapeCast S1x128 (m ((c : Thread nD τ).loc main_arg5)) shapeCasts_S128_S1x128 := by
    dsimp only [Gen.V, Gen.hostOps0]
    after_results_simp <;> rfl
  have e7 : (V m c main_v30 : S1x128.Idx → EReal) = shapeCast S1x128 (m ((c : Thread nD τ).loc main_arg7)) shapeCasts_S128_S1x128 := by
    dsimp only [Gen.V, Gen.hostOps0]
    after_results_simp <;> rfl
  have e8 : (V m c main_v31 : S1x128.Idx → EReal) = shapeCast S1x128 (m ((c : Thread nD τ).loc main_arg8)) shapeCasts_S128_S1x128 := by
    dsimp only [Gen.V, Gen.hostOps0]
    after_results_simp <;> rfl
  have e9 : (V m c main_v32 : S1x128.Idx → EReal) = shapeCast S1x128 (m ((c : Thread nD τ).loc main_arg9)) shapeCasts_S128_S1x128 := by
    dsimp only [Gen.V, Gen.hostOps0]
    after_results_simp <;> rfl
  rw [e5, e7, e8, e9]
  exact ⟨castRow_apply _ _ j, castRow_apply _ _ j, castRow_apply _ _ j, castRow_apply _ _ j⟩

end Cert.TypedLayer.Kernel

end
-- ==== Proof.KernelArray.lean ====
/-
  From the stored blocks to the result array.

  The grid has 100 points. At point `t` the body reads rows `2000·t … 2000·t + 1999` of the node features and of the
  aggregated messages — block `(t, 0)` of each — and the same whole block `(0, 0)` of the two transposed weight
  matrices and of the four rows at every point, and its stored block is written back as block `(t, 0)` of the
  result. So entry `(p, q)` of the block written at `t` is entry `(2000·t + p, q)` of the layer function of the
  argument arrays; the 100 blocks cover the result's 200000 rows (row `r` lies in the block of point `r / 2000`),
  and the array after the run is the layer function.
-/
import proofs.«110579_j80848464379988_1_alg».proof.Proof.Gen.KernelIdeal.Value
import proofs.«110579_j80848464379988_1_alg».proof.Proof.KernelRow
import proofs.«110579_j80848464379988_1_alg».proof.Proof.KernelHost
import Idealize.ShloMosaic.Lib.Pipeline.Value

noncomputable section

namespace Cert.TypedLayer.Kernel

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Value
open Cert.TypedLayer

variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid: the two row-tiled inputs and the output are at block `(t, 0)`, the six
    other inputs at block `(0, 0)`. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = t.val ∧ win0_8.index t (1 : Fin 2) = 0) :=
  (by decide +kernel : ∀ t : Fin grid0.N, _)

/-! ## Each input block, read as entries of the argument arrays -/

/-- Row `p` of the node features' block at point `t` is row `2000·t + p` of the argument. -/
theorem blk_x (c : Dev nD) (t : Fin cfg0.N) (p : Fin 2000) (k : Fin 128) (R : Fin 200000) (hR : R.val = t.val * 2000 + p.val) :
    (iblk m c 0 t : S2000x128.Idx → EReal) (ix2 p k) = ((m ((c : Thread nD τ).loc main_arg0)) : S200000x128.Idx → EReal) (ix2 R k) := by
  obtain ⟨⟨e0, e1⟩, -⟩ := idx_facts t
  show V m c main_arg0 (((cfg0.win 0).blk t).view.emb (ix2 p k)) = _
  rw [V_main_arg0]
  refine congrArg ((m ((c : Thread nD τ).loc main_arg0)) : S200000x128.Idx → EReal) (funext fun a => Fin.ext ?_)
  match a with
  | ⟨0, _⟩ => show win0_0.index t (0 : Fin 2) * 2000 + 1 * p.val = R.val; rw [e0, hR]; omega
  | ⟨1, _⟩ => show win0_0.index t (1 : Fin 2) * 128 + 1 * k.val = k.val; rw [e1]; omega

/-- Row `p` of the aggregated messages' block at point `t` is row `2000·t + p` of the aggregated array. -/
theorem blk_agg (c : Dev nD) (t : Fin cfg0.N) (p : Fin 2000) (k : Fin 128) (R : Fin 200000) (hR : R.val = t.val * 2000 + p.val) :
    (iblk m c 1 t : S2000x128.Idx → EReal) (ix2 p k) = (Cert.ReferenceIdeal.Read.val_main_v26 (F := Ideal) (m ((c : Thread nD τ).loc main_arg0)) (m ((c : Thread nD τ).loc main_arg1)) (m ((c : Thread nD τ).loc main_arg2)) (m ((c : Thread nD τ).loc main_arg3))) (ix2 R k) := by
  obtain ⟨-, ⟨e0, e1⟩, -⟩ := idx_facts t
  show V m c main_v26 (((cfg0.win 1).blk t).view.emb (ix2 p k)) = _
  rw [V_aggregated m c]
  refine congrArg (Cert.ReferenceIdeal.Read.val_main_v26 (F := Ideal) (m ((c : Thread nD τ).loc main_arg0)) (m ((c : Thread nD τ).loc main_arg1)) (m ((c : Thread nD τ).loc main_arg2)) (m ((c : Thread nD τ).loc main_arg3))) (funext fun a => Fin.ext ?_)
  match a with
  | ⟨0, _⟩ => show win0_1.index t (0 : Fin 2) * 2000 + 1 * p.val = R.val; rw [e0, hR]; omega
  | ⟨1, _⟩ => show win0_1.index t (1 : Fin 2) * 128 + 1 * k.val = k.val; rw [e1]; omega

/-- The first weight block at any point is the whole transposed `W_self`: at `(k, j)` the argument at `(j, k)`. -/
theorem blk_wSelf (c : Dev nD) (t : Fin cfg0.N) (k j : Fin 128) :
    (iblk m c 2 t : S128x128.Idx → EReal) (ix2 k j) = ((m ((c : Thread nD τ).loc main_arg4)) : S128x128.Idx → EReal) (ix2 j k) := by
  obtain ⟨-, -, ⟨e0, e1⟩, -⟩ := idx_facts t
  show V m c main_v27 (((cfg0.win 2).blk t).view.emb (ix2 k j)) = _
  refine Eq.trans (congrArg (V m c main_v27 : S128x128.Idx → EReal) (funext fun a => Fin.ext ?_)) (V_wSelfT m c k j)
  match a with
  | ⟨0, _⟩ => show win0_2.index t (0 : Fin 2) * 128 + 1 * k.val = k.val; rw [e0]; omega
  | ⟨1, _⟩ => show win0_2.index t (1 : Fin 2) * 128 + 1 * j.val = j.val; rw [e1]; omega

/-- The second weight block likewise: the whole transposed `W_msg`. -/
theorem blk_wMsg (c : Dev nD) (t : Fin cfg0.N) (k j : Fin 128) :
    (iblk m c 4 t : S128x128.Idx → EReal) (ix2 k j) = ((m ((c : Thread nD τ).loc main_arg6)) : S128x128.Idx → EReal) (ix2 j k) := by
  obtain ⟨-, -, -, -, ⟨e0, e1⟩, -⟩ := idx_facts t
  show V m c main_v28 (((cfg0.win 4).blk t).view.emb (ix2 k j)) = _
  refine Eq.trans (congrArg (V m c main_v28 : S128x128.Idx → EReal) (funext fun a => Fin.ext ?_)) (V_wMsgT m c k j)
  match a with
  | ⟨0, _⟩ => show win0_4.index t (0 : Fin 2) * 128 + 1 * k.val = k.val; rw [e0]; omega
  | ⟨1, _⟩ => show win0_4.index t (1 : Fin 2) * 128 + 1 * j.val = j.val; rw [e1]; omega

/-- The four row blocks at any point are the four vectors: at `(0, j)` the argument at `j`. -/
theorem blk_rows (c : Dev nD) (t : Fin cfg0.N) (j : Fin 128) :
    (iblk m c 3 t : S1x128.Idx → EReal) (ix2 (0 : Fin 1) j) = ((m ((c : Thread nD τ).loc main_arg5)) : S128.Idx → EReal) (ix1 j)
    ∧ (iblk m c 5 t : S1x128.Idx → EReal) (ix2 (0 : Fin 1) j) = ((m ((c : Thread nD τ).loc main_arg7)) : S128.Idx → EReal) (ix1 j)
    ∧ (iblk m c 6 t : S1x128.Idx → EReal) (ix2 (0 : Fin 1) j) = ((m ((c : Thread nD τ).loc main_arg8)) : S128.Idx → EReal) (ix1 j)
    ∧ (iblk m c 7 t : S1x128.Idx → EReal) (ix2 (0 : Fin 1) j) = ((m ((c : Thread nD τ).loc main_arg9)) : S128.Idx → EReal) (ix1 j) := by
  obtain ⟨-, -, -, ⟨a0, a1⟩, -, ⟨b0, b1⟩, ⟨g0, g1⟩, ⟨s0, s1⟩, -⟩ := idx_facts t
  obtain ⟨h5, h7, h8, h9⟩ := V_rows m c j
  refine ⟨?_, ?_, ?_, ?_⟩
  · show V m c main_v29 (((cfg0.win 3).blk t).view.emb (ix2 (0 : Fin 1) j)) = _
    refine Eq.trans (congrArg (V m c main_v29 : S1x128.Idx → EReal) (funext fun a => Fin.ext ?_)) h5
    match a with
    | ⟨0, _⟩ => show win0_3.index t (0 : Fin 2) * 1 + 1 * 0 = 0; rw [a0]
    | ⟨1, _⟩ => show win0_3.index t (1 : Fin 2) * 128 + 1 * j.val = j.val; rw [a1]; omega
  · show V m c main_v30 (((cfg0.win 5).blk t).view.emb (ix2 (0 : Fin 1) j)) = _
    refine Eq.trans (congrArg (V m c main_v30 : S1x128.Idx → EReal) (funext fun a => Fin.ext ?_)) h7
    match a with
    | ⟨0, _⟩ => show win0_5.index t (0 : Fin 2) * 1 + 1 * 0 = 0; rw [b0]
    | ⟨1, _⟩ => show win0_5.index t (1 : Fin 2) * 128 + 1 * j.val = j.val; rw [b1]; omega
  · show V m c main_v31 (((cfg0.win 6).blk t).view.emb (ix2 (0 : Fin 1) j)) = _
    refine Eq.trans (congrArg (V m c main_v31 : S1x128.Idx → EReal) (funext fun a => Fin.ext ?_)) h8
    match a with
    | ⟨0, _⟩ => show win0_6.index t (0 : Fin 2) * 1 + 1 * 0 = 0; rw [g0]
    | ⟨1, _⟩ => show win0_6.index t (1 : Fin 2) * 128 + 1 * j.val = j.val; rw [g1]; omega
  · show V m c main_v32 (((cfg0.win 7).blk t).view.emb (ix2 (0 : Fin 1) j)) = _
    refine Eq.trans (congrArg (V m c main_v32 : S1x128.Idx → EReal) (funext fun a => Fin.ext ?_)) h9
    match a with
    | ⟨0, _⟩ => show win0_7.index t (0 : Fin 2) * 1 + 1 * 0 = 0; rw [s0]
    | ⟨1, _⟩ => show win0_7.index t (1 : Fin 2) * 128 + 1 * j.val = j.val; rw [s1]; omega

/-! ## The result array -/

/-- What the result array holds after the run: the layer function of the argument arrays, the aggregated messages
    being the scatter-add stage of the first four. -/
def result (c : Dev nD) : S200000x128.Idx → EReal :=
  layer (m ((c : Thread nD τ).loc main_arg0)) (Cert.ReferenceIdeal.Read.val_main_v26 (F := Ideal) (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg6))
    (m ((c : Thread nD τ).loc main_arg5)) (m ((c : Thread nD τ).loc main_arg7)) (m ((c : Thread nD τ).loc main_arg8)) (m ((c : Thread nD τ).loc main_arg9))

/-- WHAT POINT `t` WRITES BACK is block `(t, 0)` of `result`. -/
theorem flushed_eq (c : Dev nD) (t : Fin cfg0.N) :
    (dats m 0 c).flushed 8 t = ((cfg0.win 8).blk t).view.read (Elt Ideal) (result m c) := by
  have hN : cfg0.N = 100 := N_0
  obtain ⟨-, -, -, -, -, -, -, -, ⟨o0, o1⟩⟩ := idx_facts t
  rw [Value.flushed8]
  unfold out0_8
  rw [View.canon_unit_zero hz]
  simp only [View.ld_unit_zero (S := S2000x128) hz, View.ld_unit_zero (S := S128x128) hz, View.ld_unit_zero (S := S1x128) hz]
  funext y
  obtain ⟨p, q, rfl⟩ : ∃ (p : Fin 2000) (q : Fin 128), y = ix2 p q := ⟨y 0, y 1, eq_ix2 y⟩
  have ht : t.val < 100 := hN ▸ t.isLt
  have hR : (⟨t.val * 2000 + p.val, by have := p.isLt; omega⟩ : Fin 200000).val = t.val * 2000 + p.val := rfl
  have hi : ((cfg0.win 8).blk t).view.emb (ix2 p q) = ix2 (⟨t.val * 2000 + p.val, by have := p.isLt; omega⟩ : Fin 200000) q :=
    funext fun a => Fin.ext (by
      match a with
      | ⟨0, _⟩ => show win0_8.index t (0 : Fin 2) * 2000 + 1 * p.val = t.val * 2000 + p.val; rw [o0]; omega
      | ⟨1, _⟩ => show win0_8.index t (1 : Fin 2) * 128 + 1 * q.val = q.val; rw [o1]; omega)
  show k0_pay1 (F := Ideal) (k0_pay2 (iblk m c 0 t) (iblk m c 1 t) (iblk m c 2 t) (iblk m c 4 t) (iblk m c 3 t) (iblk m c 5 t))
      (k0_pay3 (iblk m c 0 t) (iblk m c 1 t) (iblk m c 2 t) (iblk m c 4 t) (iblk m c 3 t) (iblk m c 5 t)) (iblk m c 6 t) (iblk m c 7 t) (ix2 p q)
    = result m c (((cfg0.win 8).blk t).view.emb (ix2 p q))
  rw [hi]
  refine (payload_apply (iblk m c 0 t) (iblk m c 1 t) (iblk m c 2 t) (iblk m c 4 t) (iblk m c 3 t) (iblk m c 5 t)
    (iblk m c 6 t) (iblk m c 7 t) p q).trans ?_
  exact rowOut_congr (fun k => blk_x m c t p k _ hR) (fun k => blk_agg m c t p k _ hR)
    (fun k j => blk_wSelf m c t k j) (fun k j => blk_wMsg m c t k j)
    (fun j => (blk_rows m c t j).1) (fun j => (blk_rows m c t j).2.1)
    (fun j => (blk_rows m c t j).2.2.1) (fun j => (blk_rows m c t j).2.2.2) q

/-- An index of the result array is in point `t`'s block iff each coordinate is in the block's range on its axis. -/
theorem mem_blk (t : Fin cfg0.N) (i : S200000x128.Idx) :
    i ∈ ((cfg0.win 8).blk t).view.set ↔ ∀ a : Fin 2, win0_8.index t a * S2000x128.size a ≤ (i a).val
      ∧ (i a).val < win0_8.index t a * S2000x128.size a + S2000x128.size a := by
  show i ∈ ((View.whole main_v33).slice (win0_8.rect t)).set ↔ _
  rw [View.set_slice_whole, Rect.mem_set_unit]
  exact Iff.rfl

/-- THE ARRAY after the run is `result`: every row `r` lies in the block of point `r / 2000`. -/
theorem final (c : Dev nD) : (dats m 0 c).arrAt 8 cfg0.N = result m c :=
  (dats m 0 c).arrAt_eq_of_cover 8 (result m c) (fun t _ => flushed_eq m c t) fun i => by
    have hN : grid0.N = 100 := N_0
    have hi0 : (i 0).val < 200000 := (i 0).isLt
    have hi1 : (i 1).val < 128 := (i 1).isLt
    have hlt : (i 0).val / 2000 < grid0.N := by omega
    refine ⟨⟨(i 0).val / 2000, hlt⟩, flush0_8 _, ?_⟩
    obtain ⟨-, -, -, -, -, -, -, -, ⟨o0, o1⟩⟩ := idx_facts ⟨(i 0).val / 2000, hlt⟩
    have o0' : win0_8.index ⟨(i 0).val / 2000, hlt⟩ (0 : Fin 2) = (i 0).val / 2000 := o0
    rw [mem_blk]
    intro a
    match a with
    | ⟨0, _⟩ =>
      show win0_8.index ⟨(i 0).val / 2000, _⟩ (0 : Fin 2) * 2000 ≤ (i 0).val
        ∧ (i 0).val < win0_8.index ⟨(i 0).val / 2000, _⟩ (0 : Fin 2) * 2000 + 2000
      rw [o0']; omega
    | ⟨1, _⟩ =>
      show win0_8.index ⟨(i 0).val / 2000, _⟩ (1 : Fin 2) * 128 ≤ (i 1).val
        ∧ (i 1).val < win0_8.index ⟨(i 0).val / 2000, _⟩ (1 : Fin 2) * 128 + 128
      rw [o1]; omega

/-! ## The run, read -/

/-- Every weakly fair execution of the kernel's program terminates with the result array at `result` and the
    arguments unchanged. -/
theorem run : θ_run defs (onTc (τ := τ) (main (F := Ideal))) ⟨m, fun _ => 0, ρ⟩ fun r => ∀ c : Dev nD,
      r.2.mem ((c : Thread nD τ).loc main_v33) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (Value.run_blocks m ρ)

end Cert.TypedLayer.Kernel

end
-- ==== Proof.RefRow.lean ====
/-
  The reference's result, entry by entry.

  The reference computes the layer on whole arrays: the aggregated messages (carried here as the stage that produces
  them, never opened), the two products `x · W_selfᵀ` and `agg · W_msgᵀ` as contractions over the feature index,
  the biases broadcast over the rows, the rectifier, and the row-wise normalisation with its two row sums. Read at
  entry `(r, q)`, each stage depends on row `r` only, and the whole is column `q` of the row function `rowOut` of
  rows `r`. A host sum carries its initial value, the zero word: it adds nothing.
-/
import proofs.«110579_j80848464379988_1_alg».proof.Proof.Gen.ReferenceIdeal.Read
import proofs.«110579_j80848464379988_1_alg».proof.Proof.RowSpec
import Idealize.ShloMosaic.Lib.ValueIdx
import Idealize.ShloMosaic.PureOps.Ideal.Laws

noncomputable section

namespace Cert.TypedLayer.Ref

open Idealize.ShloMosaic Idealize.ShloMosaic.TcCoe Idealize.ShloMosaic.ValueIdx
open Cert.ReferenceIdeal Cert.ReferenceIdeal.Read
open Cert.TypedLayer

/-! ## Where each stage reads its operand, at an entry of row `r` -/

theorem lhsSelf (r : Fin 200000) (j k : Fin 128) : lidx_main_v28 (ix2 r j) k = ix2 r k := funext fun a => Fin.ext (by match a with | ⟨0, _⟩ => rfl | ⟨1, _⟩ => rfl)
theorem rhsSelf (r : Fin 200000) (j k : Fin 128) : idx_main_v27 (ridx_main_v28 (ix2 r j) k) = ix2 j k := funext fun a => Fin.ext (by match a with | ⟨0, _⟩ => rfl | ⟨1, _⟩ => rfl)
theorem lhsMsg (r : Fin 200000) (j k : Fin 128) : lidx_main_v33 (ix2 r j) k = ix2 r k := funext fun a => Fin.ext (by match a with | ⟨0, _⟩ => rfl | ⟨1, _⟩ => rfl)
theorem rhsMsg (r : Fin 200000) (j k : Fin 128) : idx_main_v32 (ridx_main_v33 (ix2 r j) k) = ix2 j k := funext fun a => Fin.ext (by match a with | ⟨0, _⟩ => rfl | ⟨1, _⟩ => rfl)
theorem biasSelf (r : Fin 200000) (j : Fin 128) : idx_main_v29 (idx_main_v30 (ix2 r j)) = ix1 j := funext fun a => Fin.ext (by match a with | ⟨0, _⟩ => rfl)
theorem biasMsg (r : Fin 200000) (j : Fin 128) : idx_main_v34 (idx_main_v35 (ix2 r j)) = ix1 j := funext fun a => Fin.ext (by match a with | ⟨0, _⟩ => rfl)
theorem scaleAt (r : Fin 200000) (j : Fin 128) : idx_main_v57 (idx_main_v58 (ix2 r j)) = ix1 j := funext fun a => Fin.ext (by match a with | ⟨0, _⟩ => rfl)
theorem shiftAt (r : Fin 200000) (j : Fin 128) : idx_main_v60 (idx_main_v61 (ix2 r j)) = ix1 j := funext fun a => Fin.ext (by match a with | ⟨0, _⟩ => rfl)
theorem sumAt (r : Fin 200000) (k : Fin 128) : idx_main_v39 (idx_main_v40 (ix2 r (0 : Fin 1))) k = ix2 r k := funext fun a => Fin.ext (by match a with | ⟨0, _⟩ => rfl | ⟨1, _⟩ => rfl)
theorem sqSumAt (r : Fin 200000) (k : Fin 128) : idx_main_v46 (idx_main_v47 (ix2 r (0 : Fin 1))) k = ix2 r k := funext fun a => Fin.ext (by match a with | ⟨0, _⟩ => rfl | ⟨1, _⟩ => rfl)
theorem meanAt (r : Fin 200000) (j : Fin 128) : idx_main_v43 (ix2 r j) = ix2 r (0 : Fin 1) := funext fun a => Fin.ext (by match a with | ⟨0, _⟩ => rfl | ⟨1, _⟩ => rfl)
theorem meanAt' (r : Fin 200000) (j : Fin 128) : idx_main_v50 (ix2 r j) = ix2 r (0 : Fin 1) := funext fun a => Fin.ext (by match a with | ⟨0, _⟩ => rfl | ⟨1, _⟩ => rfl)
theorem invAt (r : Fin 200000) (j : Fin 128) : idx_main_v55 (ix2 r j) = ix2 r (0 : Fin 1) := funext fun a => Fin.ext (by match a with | ⟨0, _⟩ => rfl | ⟨1, _⟩ => rfl)

section
variable (x0 : (⟨S200000x128, .f32⟩ : BufTy).Contents (Elt Ideal)) (x1 : (⟨S2x600000, .i32⟩ : BufTy).Contents (Elt Ideal))
  (x2 : (⟨S600000, .i32⟩ : BufTy).Contents (Elt Ideal)) (x3 : (⟨S16x128, .f32⟩ : BufTy).Contents (Elt Ideal))
  (x4 : (⟨S128x128, .f32⟩ : BufTy).Contents (Elt Ideal)) (x5 : (⟨S128, .f32⟩ : BufTy).Contents (Elt Ideal))
  (x6 : (⟨S128x128, .f32⟩ : BufTy).Contents (Elt Ideal)) (x7 x8 x9 : (⟨S128, .f32⟩ : BufTy).Contents (Elt Ideal))

/-! ## The stages at an entry -/

/-- The sum of the two biased products at `(r, j)`. -/
theorem pre_apply (r : Fin 200000) (j : Fin 128) :
    val_main_v37 (F := Ideal) x0 x1 x2 x3 x4 x5 x6 x7 (ix2 r j) = pre (fun k => x0 (ix2 r k)) (fun k => val_main_v26 (F := Ideal) x0 x1 x2 x3 (ix2 r k)) (fun k j => x4 (ix2 j k)) (fun k j => x6 (ix2 j k)) (fun j => x5 (ix1 j)) (fun j => x7 (ix1 j)) j := by
  rw [val_main_v37_apply, val_main_v31_apply, val_main_v36_apply, val_main_v28_apply, val_main_v33_apply,
    val_main_v30_apply, val_main_v29_apply, val_main_v35_apply, val_main_v34_apply, biasSelf, biasMsg]
  unfold pre
  refine congrArg₂ (· + ·) (congrArg₂ (· + ·) (Finset.sum_congr rfl fun k _ => ?_) rfl)
    (congrArg₂ (· + ·) (Finset.sum_congr rfl fun k _ => ?_) rfl)
  · rw [val_main_v27_apply, lhsSelf, rhsSelf]
  · rw [val_main_v32_apply, lhsMsg, rhsMsg]

/-- The rectified pre-activation at `(r, j)`. -/
theorem act_apply (r : Fin 200000) (j : Fin 128) :
    val_main_v38 (F := Ideal) x0 x1 x2 x3 x4 x5 x6 x7 (ix2 r j) = act (fun k => x0 (ix2 r k)) (fun k => val_main_v26 (F := Ideal) x0 x1 x2 x3 (ix2 r k)) (fun k j => x4 (ix2 j k)) (fun k j => x6 (ix2 j k)) (fun j => x5 (ix1 j)) (fun j => x7 (ix1 j)) j := by
  rw [val_main_v38_apply, val_main_call0_v0_apply, val_main_call0_cst_apply, pre_apply]
  rfl

/-- The row mean, held at `(r, 0)` of a column. -/
theorem mean_apply (r : Fin 200000) :
    val_main_v42 (F := Ideal) x0 x1 x2 x3 x4 x5 x6 x7 (ix2 r (0 : Fin 1)) = rowMean (act (fun k => x0 (ix2 r k)) (fun k => val_main_v26 (F := Ideal) x0 x1 x2 x3 (ix2 r k)) (fun k j => x4 (ix2 j k)) (fun k j => x6 (ix2 j k)) (fun j => x5 (ix1 j)) (fun j => x7 (ix1 j))) := by
  rw [val_main_v42_apply, val_main_v40_apply, val_main_v39_apply, val_main_v41_apply, val_main_cst_6_apply, val_main_cst_5_apply]
  unfold rowMean
  show Ideal.div (Ideal.ofBits .f32 0x00000000#32 + _) _ = Ideal.div _ _
  rw [Ideal.ofBits_zero_f32, zero_add]
  refine congrArg (Ideal.div · _) (Finset.sum_congr rfl fun k _ => ?_)
  rw [sumAt, act_apply]

/-- The centred activation at `(r, j)`, as the variance's operand … -/
theorem centered_apply (r : Fin 200000) (j : Fin 128) :
    val_main_v44 (F := Ideal) x0 x1 x2 x3 x4 x5 x6 x7 (ix2 r j) = centered (act (fun k => x0 (ix2 r k)) (fun k => val_main_v26 (F := Ideal) x0 x1 x2 x3 (ix2 r k)) (fun k j => x4 (ix2 j k)) (fun k j => x6 (ix2 j k)) (fun j => x5 (ix1 j)) (fun j => x7 (ix1 j))) j := by
  rw [val_main_v44_apply, val_main_v43_apply, meanAt, mean_apply, act_apply]
  rfl

/-- … and as the result's factor (the program subtracts the mean a second time). -/
theorem centered_apply' (r : Fin 200000) (j : Fin 128) :
    val_main_v51 (F := Ideal) x0 x1 x2 x3 x4 x5 x6 x7 (ix2 r j) = centered (act (fun k => x0 (ix2 r k)) (fun k => val_main_v26 (F := Ideal) x0 x1 x2 x3 (ix2 r k)) (fun k j => x4 (ix2 j k)) (fun k j => x6 (ix2 j k)) (fun j => x5 (ix1 j)) (fun j => x7 (ix1 j))) j := by
  rw [val_main_v51_apply, val_main_v50_apply, meanAt', mean_apply, act_apply]
  rfl

/-- The row variance, held at `(r, 0)` of a column. -/
theorem var_apply (r : Fin 200000) :
    val_main_v49 (F := Ideal) x0 x1 x2 x3 x4 x5 x6 x7 (ix2 r (0 : Fin 1)) = rowVar (act (fun k => x0 (ix2 r k)) (fun k => val_main_v26 (F := Ideal) x0 x1 x2 x3 (ix2 r k)) (fun k j => x4 (ix2 j k)) (fun k j => x6 (ix2 j k)) (fun j => x5 (ix1 j)) (fun j => x7 (ix1 j))) := by
  rw [val_main_v49_apply, val_main_v47_apply, val_main_v46_apply, val_main_v48_apply, val_main_cst_8_apply, val_main_cst_7_apply]
  unfold rowVar rowMean
  show Ideal.div (Ideal.ofBits .f32 0x00000000#32 + _) _ = Ideal.div _ _
  rw [Ideal.ofBits_zero_f32, zero_add]
  refine congrArg (Ideal.div · _) (Finset.sum_congr rfl fun k _ => ?_)
  rw [sqSumAt, val_main_v45_apply, centered_apply]
  rfl

/-- The result at `(r, q)`: the row function of rows `r`, at column `q`. -/
theorem out_apply (r : Fin 200000) (q : Fin 128) :
    val_main_v62 (F := Ideal) x0 x1 x2 x3 x4 x5 x6 x7 x8 x9 (ix2 r q)
      = rowOut (fun k => x0 (ix2 r k)) (fun k => val_main_v26 (F := Ideal) x0 x1 x2 x3 (ix2 r k)) (fun k j => x4 (ix2 j k)) (fun k j => x6 (ix2 j k)) (fun j => x5 (ix1 j)) (fun j => x7 (ix1 j)) (fun j => x8 (ix1 j)) (fun j => x9 (ix1 j)) q := by
  rw [val_main_v62_apply, val_main_v59_apply, val_main_v56_apply, centered_apply', val_main_v55_apply, invAt,
    val_main_v54_apply, val_main_v53_apply, var_apply, val_main_v52_apply, val_main_cst_9_apply,
    val_main_v58_apply, val_main_v57_apply, scaleAt, val_main_v61_apply, val_main_v60_apply, shiftAt]
  rfl

/-- The reference's result array is the layer function of its arguments and of the aggregated messages. -/
theorem result_eq :
    val_main_v62 (F := Ideal) x0 x1 x2 x3 x4 x5 x6 x7 x8 x9
      = layer x0 (val_main_v26 (F := Ideal) x0 x1 x2 x3) x4 x6 x5 x7 x8 x9 := by
  funext i
  obtain ⟨r, q, rfl⟩ : ∃ (r : Fin 200000) (q : Fin 128), i = ix2 r q := ⟨i 0, i 1, eq_ix2 i⟩
  rw [out_apply]
  rfl

end

end Cert.TypedLayer.Ref

end
-- ==== Proof.lean ====
/-
  A typed message-passing layer on a graph of 200000 nodes and 600000 edges, with 128 features: the kernel's
  program against its reference, on the extended reals.

  Both programs first aggregate messages on the host: the source node's features plus the edge type's embedding,
  scatter-added into the destination node. They do it with the same operations in the same order, so the
  aggregated array is ONE term of the first four arguments on both sides; it is carried whole and never opened.

  Then, row by row, both compute
      out = ((c · (mean(c · c) + ε)^(−1/2)) · γ) + β,   c = a − mean(a),   a = max((x·W_selfᵀ + b_self) + (agg·W_msgᵀ + b_msg), 0),
  the reference on whole arrays on the host, the kernel on blocks of 2000 rows, one per grid point, with the two
  weight matrices transposed on the host beforehand and the four vectors recast as rows. On the extended reals a
  matrix product into a zero accumulator and a contraction are the same sum over the feature index, a lane
  reduction and a host reduction from zero are the same row sum, rounding the product's operands to bf16 is the
  identity, and the two programs use the same three float literals (zero, 128, ε). So the two results are the same
  expression, operation for operation and in the same grouping: no law that could fail at an infinity is used, and
  the precondition (every float input finite) is never opened.

  The pieces: `Proof/RowSpec.lean` — one output row as a function `rowOut`, and the whole array `layer`;
  `Proof/KernelRow.lean` — entry `(p, q)` of the block a grid point stores is `rowOut` of rows `p` of its loads;
  `Proof/KernelHost.lean` — the arrays the host wrote for the windows; `Proof/KernelArray.lean` — the 100 blocks are
  the blocks of `layer` and cover the result; `Proof/RefRow.lean` — the reference's result is `layer`. The
  frames of the two kernel programs and the kernel's run with its output array named, and the reference's run and
  its stages read at an index, are the generated modules'.
-/
import proofs.«110579_j80848464379988_1_alg».proof.Defs
import proofs.«110579_j80848464379988_1_alg».proof.Proof.Gen.Kernel
import proofs.«110579_j80848464379988_1_alg».proof.Proof.Gen.Kernel.Frame
import proofs.«110579_j80848464379988_1_alg».proof.Proof.Gen.KernelIdeal
import proofs.«110579_j80848464379988_1_alg».proof.Proof.Gen.KernelIdeal.Frame
import proofs.«110579_j80848464379988_1_alg».proof.Proof.Gen.KernelIdeal.Value
import proofs.«110579_j80848464379988_1_alg».proof.Proof.Gen.ReferenceIdeal
import proofs.«110579_j80848464379988_1_alg».proof.Proof.Gen.ReferenceIdeal.Run
import proofs.«110579_j80848464379988_1_alg».proof.Proof.Gen.ReferenceIdeal.Read
import proofs.«110579_j80848464379988_1_alg».proof.Proof.Gen.Pre_finite_inputs
import proofs.«110579_j80848464379988_1_alg».proof.Proof.KernelArray
import proofs.«110579_j80848464379988_1_alg».proof.Proof.RefRow
import Idealize.ShloMosaic.Adequacy
import Idealize.ShloMosaic.Init

noncomputable section

namespace Cert.Proof

open Idealize.ShloMosaic Idealize.SL.Sem

/-- The word-level kernel program terminates without a fault and leaves its arguments unchanged. -/
theorem frame_kernel : Cert.frame_Kernel := fun m ρ _ => Cert.Kernel.Gen.frame m ρ

/-- So does the kernel program read on the extended reals. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Reading the kernel program on the extended reals rewrote none of its operations. -/
theorem preserves : Cert.preserves_Kernel_KernelIdeal := trivial

/-- From memories that agree on the ten arguments, the kernel program's result array and the reference's both end
    at the layer function of those arguments (`Kernel.run`, `Ref.result_eq`). -/
theorem algebraic : Cert.algebraic_KernelIdeal_ReferenceIdeal := by
  intro m ρ m' ρ' _ hagree
  refine ⟨fun c => Cert.TypedLayer.Kernel.result m c, Cert.TypedLayer.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v62_eq, Cert.TypedLayer.Ref.result_eq]
  obtain ⟨a0, a1, a2, a3, a4, a5, a6, a7, a8, a9⟩ := hagree c
  rw [a0, a1, a2, a3, a4, a5, a6, a7, a8, a9]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
